-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x2048 .f32) (main_arg1 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S8x4096x2048 : Shape := ⟨3, ![8, 4096, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x2048, .f32⟩
  | .hbm, ⟨3, _⟩ => ⟨S1x2048, .f32⟩
  | .hbm, ⟨4, _⟩ => ⟨S32768x2048, .f32⟩
  | .hbm, ⟨5, _⟩ => ⟨S8x4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x2048_S32768x2048 : S8x4096x2048.ShapeCasts S32768x2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  broadcasts_S1x2048_S1024x2048 : S1x2048.Broadcasts S1024x2048
  shapeCasts_S32768x2048_S8x4096x2048 : S32768x2048.ShapeCasts S8x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .f32 = 32 ∨ (Rect.block (s := S32768x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S32768x2048.size a
  hwx0_2 : ∀ i : grid0.Coords, EltTy.bits .f32 = 32 ∨ (Rect.block (s := S32768x2048) S1024x2048.size (cc0_transform_2 i) (hinb0_2 i)).WholeWords (EltTy.packing .f32)

variable [Facts₀]

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048 : Shape := ⟨1, ![2048]⟩
abbrev S1x1x2048 : Shape := ⟨3, ![1, 1, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S1x1x2048, .f32⟩
  | .hbm, ⟨3, _⟩ => ⟨S8x4096x2048, .f32⟩
  | .hbm, ⟨4, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)

variable [Facts₀]

class Facts : Prop extends Facts₀ where

variable [Facts]
-- ==== Proof.Dropout.lean ====
/-
  Feature dropout with a fixed keep-mask, as mathematics.  The input is a stack x[b, t, d] of 8 × 4096 rows of 2048
  features and the mask k[d] has one factor per feature; the result is x[b, t, d] · k[d].  The same map can be
  computed on the 32768 × 2048 matrix whose row b · 4096 + t is row (b, t) of the stack, with the mask laid out as a
  single row: out[r, d] = x[r, d] · k[0, d].  Since a change of shape keeps the row-major position of every entry,
  re-bracketing the rows of that matrix product gives the stacked product back (`scaleRows_reshape`).  No law of
  arithmetic is used: on both sides each entry is the one product x · k, with the factors in the same order, so the
  statement holds for any interpretation of the float operations.
-/
import Idealize.ShloMosaic.Lib.ValueIdx
import Idealize.ShloMosaic.Lib.Pipeline.Value

noncomputable section

namespace Cert.Dropout

open Idealize.ShloMosaic Idealize.ShloMosaic.ValueIdx

variable {F : FTy → Type} [FloatOps F]

/-- The stack of rows, the mask, the rows as one matrix, the mask as a one-row matrix. -/
abbrev Stack : Shape := ⟨3, ![8, 4096, 2048]⟩
abbrev Mask : Shape := ⟨1, ![2048]⟩
abbrev Rows : Shape := ⟨2, ![32768, 2048]⟩
abbrev MaskRow : Shape := ⟨2, ![1, 2048]⟩

/-- Every feature of every row of the stack times that feature's mask factor: out[b, t, d] = x[b, t, d] · k[d]. -/
def scale (x : FVec F Stack .f32) (k : FVec F Mask .f32) : FVec F Stack .f32 :=
  fun i => FloatOps.mulf (x i) (k (ix1 (i 2)))

/-- The same on the matrix of all rows, the mask given as a one-row matrix: out[r, d] = x[r, d] · k[0, d]. -/
def scaleRows (x : FVec F Rows .f32) (k : FVec F MaskRow .f32) : FVec F Rows .f32 :=
  fun j => FloatOps.mulf (x j) (k (ix2 (0 : Fin 1) (j 1)))

/-- Row b · 4096 + t of the matrix is row (b, t) of the stack. -/
theorem rows_of_stack (x : FVec F Stack .f32) (h : Stack.ShapeCasts Rows) (b : Fin 8) (t : Fin 4096) (d : Fin 2048)
    (hr : b.val * 4096 + t.val < 32768) :
    shapeCast Rows x h (ix2 ⟨b.val * 4096 + t.val, hr⟩ d) = x (ix3 b t d) :=
  shapeCast_apply x h _ _ (by
    rw [Shape.rowMajor_val_three, Shape.rowMajor_val_two]
    rfl)

/-- Entry (0, d) of the one-row mask is entry d of the mask. -/
theorem maskRow_of_mask (k : FVec F Mask .f32) (h : Mask.ShapeCasts MaskRow) (d : Fin 2048) :
    shapeCast MaskRow k h (ix2 (0 : Fin 1) d) = k (ix1 d) :=
  shapeCast_apply k h _ _ (by
    rw [Shape.rowMajor_val_one, Shape.rowMajor_val_two]
    show d.val = 0 * 2048 + d.val
    omega)

/-- Entry (b, t, d) of the re-bracketed matrix is entry (b · 4096 + t, d) of the matrix. -/
theorem stack_of_rows (y : FVec F Rows .f32) (h : Rows.ShapeCasts Stack) (b : Fin 8) (t : Fin 4096) (d : Fin 2048)
    (hr : b.val * 4096 + t.val < 32768) :
    shapeCast Stack y h (ix3 b t d) = y (ix2 ⟨b.val * 4096 + t.val, hr⟩ d) :=
  shapeCast_apply y h _ _ (by
    rw [Shape.rowMajor_val_two, Shape.rowMajor_val_three]
    rfl)

/-- Scaling the matrix of all rows by the one-row mask and re-bracketing the rows is scaling the stack by the mask. -/
theorem scaleRows_reshape (x : FVec F Stack .f32) (k : FVec F Mask .f32)
    (hx : Stack.ShapeCasts Rows) (hk : Mask.ShapeCasts MaskRow) (hy : Rows.ShapeCasts Stack) :
    shapeCast Stack (scaleRows (shapeCast Rows x hx) (shapeCast MaskRow k hk)) hy = scale x k := by
  funext i
  obtain ⟨b, t, d, rfl⟩ : ∃ (b : Fin 8) (t : Fin 4096) (d : Fin 2048), i = ix3 b t d := ⟨i 0, i 1, i 2, eq_ix3 i⟩
  have hr : b.val * 4096 + t.val < 32768 := by have := b.isLt; have := t.isLt; omega
  rw [stack_of_rows _ hy b t d hr]
  show FloatOps.mulf (shapeCast Rows x hx (ix2 ⟨b.val * 4096 + t.val, hr⟩ d)) (shapeCast MaskRow k hk (ix2 (0 : Fin 1) d))
    = FloatOps.mulf (x (ix3 b t d)) (k (ix1 d))
  rw [rows_of_stack x hx b t d hr, maskRow_of_mask k hk d]

end Cert.Dropout

end
-- ==== Proof.KernelBlocks.lean ====
/-
  The kernel's region, block by block.  The region works on the matrix of all 32768 rows (2048 features each) and on
  the mask laid out as one row.  Its grid has 32 points; point t loads rows 1024 t … 1024 t + 1023 of the matrix
  and the whole mask row, multiplies every loaded row by the mask row entry by entry (`pay_eq`), and writes the
  product back to the same rows of the output matrix.  So what point t writes back is block t of ONE matrix: the
  matrix of rows scaled by the mask row (`flushed_eq`).  Row r lies in the block of point r / 1024, so the 32 blocks
  cover the output matrix (`cover`), which therefore ends holding that scaled matrix (`final`).
-/
import proofs.«113322_j17540646437457_2_alg».proof.Proof.Gen.KernelIdeal.Frame
import proofs.«113322_j17540646437457_2_alg».proof.Proof.Dropout
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Dropout

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- What the body stores, entry by entry: the loaded block of rows times the loaded mask row, the mask row repeated
    down the 1024 rows of the block. -/
theorem pay_eq (v0 : Vec F S1x2048 .f32) (v2 : Vec F S1024x2048 .f32) :
    k0_pay1 v0 v2 = fun j => FloatOps.mulf (v2 j) (v0 (ix2 (0 : Fin 1) (j 1))) := by
  funext j
  unfold k0_pay1
  show FloatOps.mulf (shapeCast S1024x2048 v2 _ j) (broadcastTo S1024x2048 (shapeCast S1x2048 v0 _) _ j) = _
  rw [shapeCast_self, shapeCast_self, broadcastTo_apply v0 _ j (ix2 (0 : Fin 1) (j 1)) (fun a => match a with
    | ⟨0, _⟩ => by show (0 : Nat) = if (1 : Nat) = 1 then 0 else (j 0).val; rw [if_pos rfl]
    | ⟨1, _⟩ => by show (j 1).val = if (2048 : Nat) = 1 then 0 else (j 1).val; rw [if_neg (by decide)])]

/-- The block indices at grid point t: the rows window and the output window are at block (t, 0), the mask window at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the scaled matrix of rows: rows 1024 t … 1024 t + 1023 of the
    matrix the region finds, each times the mask row the region finds. -/
theorem flushed_eq (c : Dev nD) (t : Fin cfg0.N) :
    (dats m 0 c).flushed 2 t = ((cfg0.win 2).blk t).view.read (Elt F) (scaleRows (V m c main_v0) (V m c main_v1)) := by
  show (cfg0.win 2).cut (grid0.coords t) ((dats m 0 c).after 2 t) = _
  rw [after0_2]
  unfold out0_2
  rw [View.canon_unit_zero hz]
  simp only [View.ld_unit_zero (S := S1024x2048) hz, View.ld_unit_zero (S := S1x2048) hz]
  rw [pay_eq]
  obtain ⟨e0, e1, e2, e3, e4, e5⟩ := idx_facts t
  funext j
  show FloatOps.mulf (V m c main_v0 (((cfg0.win 0).blk t).view.emb j)) (V m c main_v1 (((cfg0.win 1).blk t).view.emb (ix2 (0 : Fin 1) (j 1))))
    = FloatOps.mulf (V m c main_v0 (((cfg0.win 2).blk t).view.emb j)) (V m c main_v1 (ix2 (0 : Fin 1) ((((cfg0.win 2).blk t).view.emb j) 1)))
  have hj0 : (j 0).val < 1024 := (j 0).isLt
  have hj1 : (j 1).val < 2048 := (j 1).isLt
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb (ix2 (0 : Fin 1) (j 1)) = ix2 (0 : Fin 1) ((((cfg0.win 2).blk t).view.emb j) 1) := by
    funext a; apply Fin.ext
    match a with
    | ⟨0, _⟩ => show win0_1.index t (0 : Fin 2) * 1 + 1 * 0 = 0; omega
    | ⟨1, _⟩ => show win0_1.index t (1 : Fin 2) * 2048 + 1 * (j 1).val = win0_2.index t (1 : Fin 2) * 2048 + 1 * (j 1).val; omega
  rw [h0, h1]
  rfl

/-- An index of the matrix lies in point t's block iff each coordinate lies in the block's range on its axis. -/
theorem mem_blk (t : Fin cfg0.N) (i : S32768x2048.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v2).slice (win0_2.rect t)).set ↔ _
  rw [View.set_slice_whole, Rect.mem_set_unit]
  exact Iff.rfl

/-- Row r of the matrix is written back by grid point r / 1024: the 32 blocks of 1024 rows tile the 32768 rows. -/
theorem cover (i : S32768x2048.Idx) : ∃ t : Fin cfg0.N, (cfg0.win 2).flush t = true ∧ i ∈ ((cfg0.win 2).blk t).view.set := by
  have hi0 : (i 0).val < 32768 := (i 0).isLt
  have hi1 : (i 1).val < 2048 := (i 1).isLt
  have hN : cfg0.N = 32 := N_0
  obtain ⟨t, ht⟩ : ∃ t : Fin cfg0.N, t.val = (i 0).val / 1024 := ⟨⟨(i 0).val / 1024, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The region's output array after the last point: the matrix of rows the region found, every row times the mask
    row it found. -/
theorem final (c : Dev nD) : (dats m 0 c).arrAt 2 cfg0.N = scaleRows (V m c main_v0) (V m c main_v1) :=
  (dats m 0 c).arrAt_eq_of_cover 2 _ (fun t _ => flushed_eq m c t) cover

end Cert.KernelIdeal.Hand

end
-- ==== Proof.KernelResult.lean ====
/-
  The kernel's whole program.  Before the region the host re-brackets the argument stack x[b, t, d] into the matrix
  whose row b · 4096 + t is row (b, t) of the stack, and the mask k[d] into a one-row matrix (`rows_entry`,
  `mask_entry`); after the region it re-brackets the region's output matrix back into a stack.  With the region's
  output the scaled matrix of rows, the program's result is the stack scaled by the mask, x[b, t, d] · k[d]
  (`result_eq`), and the arguments are left as launched (`run`).
-/
import proofs.«113322_j17540646437457_2_alg».proof.Proof.KernelBlocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Dropout

variable {F : FTy → Type} [FloatOps F]
variable (m : (ℓ : Loc nD τ sig) → Buf (Elt F) ℓ) (ρ : Dev nD → PrngReg)

/-- The matrix of rows the region finds is the argument stack with its rows re-bracketed. -/
theorem rows_entry (c : Dev nD) : (V m c main_v0 : S32768x2048.Idx → Elt F .f32)
    = shapeCast S32768x2048 (m ((c : Thread nD τ).loc main_arg0)) shapeCasts_S8x4096x2048_S32768x2048 := by
  show StableHlo.after hostOps0 (fun b => m (c, b)) (Proc.devRef .tc main_v0) = _
  after_results
  rfl

/-- The mask row the region finds is the argument mask as a one-row matrix. -/
theorem mask_entry (c : Dev nD) : (V m c main_v1 : S1x2048.Idx → Elt F .f32)
    = shapeCast S1x2048 (m ((c : Thread nD τ).loc main_arg1)) shapeCasts_S2048_S1x2048 := by
  show StableHlo.after hostOps0 (fun b => m (c, b)) (Proc.devRef .tc main_v1) = _
  after_results
  rfl

/-- The program's result: the host re-brackets the region's output array into the stack. -/
theorem result_eq (c : Dev nD) :
    Pipeline.afterTail₀ cfgs (dats m) 0 (V0 m) [hostOps1] c main_v3
      = scale (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = scaleRows (shapeCast S32768x2048 (m ((c : Thread nD τ).loc main_arg0)) shapeCasts_S8x4096x2048_S32768x2048)
          (shapeCast S1x2048 (m ((c : Thread nD τ).loc main_arg1)) shapeCasts_S2048_S1x2048) := by
    rw [← rows_entry m c, ← mask_entry m c]
    exact (Pipeline.withArrays_arr spec0 launch0.win.arr_inj c _ _ 2).trans (final m c)
  show shapeCast S8x4096x2048 (Pipeline.withArrays (cfgs 0).spec c (V0 m c) (fun w => (dats m 0 c).arrAt w (cfgs 0).N)
      (Proc.devRef .tc main_v2)) shapeCasts_S32768x2048_S8x4096x2048 = _
  rw [hw]
  exact scaleRows_reshape _ _ _ _ _

/-- The run, read: every weakly fair execution ends with the result array at the stack scaled by the mask, feature
    by feature, and the two arguments as launched. -/
theorem run : θ_run defs (onTc (τ := τ) (main (F := F))) ⟨m, fun _ => 0, ρ⟩ fun r => ∀ c : Dev nD,
      r.2.mem ((c : Thread nD τ).loc main_v3) = scale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Hand

end
-- ==== Proof.Reference.lean ====
/-
  The reference computes the stack times the mask in three steps: the mask k[d] is given two leading unit axes,
  k'[0, 0, d] = k[d]; that is repeated over the 8 × 4096 rows, k''[b, t, d] = k'[0, 0, d]; and the stack is multiplied
  by it entry by entry.  Read at an index (b, t, d) the result is x[b, t, d] · k[d]: the scaled stack.
-/
import proofs.«113322_j17540646437457_2_alg».proof.Proof.Gen.ReferenceIdeal.Read
import proofs.«113322_j17540646437457_2_alg».proof.Proof.Dropout
import Idealize.ShloMosaic.Lib.ValueIdx

noncomputable section

open Idealize.ShloMosaic Idealize.ShloMosaic.ValueIdx

namespace Cert.ReferenceIdeal.Hand

open Cert.ReferenceIdeal Cert.ReferenceIdeal.Read Cert.Dropout

variable {F : FTy → Type} [FloatOps F]

/-- Through both repetitions, entry (b, t, d) of the repeated mask reads the mask at d. -/
theorem mask_index (i : S8x4096x2048.Idx) : idx_main_v0 (idx_main_v1 i) = ix1 (i 2) :=
  funext fun a => Fin.ext (by match a with | ⟨0, _⟩ => rfl)

/-- The reference's result is the stack scaled by the mask. -/
theorem reference_eq (x : (⟨S8x4096x2048, .f32⟩ : BufTy).Contents (Elt F)) (k : (⟨S2048, .f32⟩ : BufTy).Contents (Elt F)) :
    val_main_v2 (F := F) x k = scale x k := by
  funext i
  rw [val_main_v2_apply, val_main_v1_apply, val_main_v0_apply, mask_index]
  rfl

end Cert.ReferenceIdeal.Hand

end
-- ==== Proof.lean ====
/-
  The kernel applies a fixed feature mask to a stack of rows: out[b, t, d] = x[b, t, d] · k[d] over x of shape
  [8, 4096, 2048] and k of shape [2048].  It re-brackets the stack into a 32768 × 2048 matrix, multiplies each
  1024-row block by the mask row in a 32-point grid, and re-brackets the product back.  The reference multiplies the
  stack by the mask repeated over the rows.  Both compute, at every index, the one product x[b, t, d] · k[d] with the
  factors in the same order, so the results agree entry by entry over the extended reals; no law of arithmetic and
  no finiteness of the inputs is needed.  The idealized kernel is the kernel's own text (no rewrite was applied), so
  there is nothing to preserve.
-/
import proofs.«113322_j17540646437457_2_alg».proof.Defs
import proofs.«113322_j17540646437457_2_alg».proof.Proof.Gen.Kernel
import proofs.«113322_j17540646437457_2_alg».proof.Proof.Gen.Kernel.Skeleton
import proofs.«113322_j17540646437457_2_alg».proof.Proof.Gen.Kernel.Launch
import proofs.«113322_j17540646437457_2_alg».proof.Proof.Gen.Kernel.Points
import proofs.«113322_j17540646437457_2_alg».proof.Proof.Gen.Kernel.Frame
import proofs.«113322_j17540646437457_2_alg».proof.Proof.Gen.KernelIdeal
import proofs.«113322_j17540646437457_2_alg».proof.Proof.Gen.KernelIdeal.Skeleton
import proofs.«113322_j17540646437457_2_alg».proof.Proof.Gen.KernelIdeal.Launch
import proofs.«113322_j17540646437457_2_alg».proof.Proof.Gen.KernelIdeal.Points
import proofs.«113322_j17540646437457_2_alg».proof.Proof.Gen.KernelIdeal.Frame
import proofs.«113322_j17540646437457_2_alg».proof.Proof.Gen.ReferenceIdeal
import proofs.«113322_j17540646437457_2_alg».proof.Proof.Gen.Pre_finite_inputs
import proofs.«113322_j17540646437457_2_alg».proof.Proof.Gen.ReferenceIdeal.Run
import proofs.«113322_j17540646437457_2_alg».proof.Proof.Gen.ReferenceIdeal.Read
import proofs.«113322_j17540646437457_2_alg».proof.Proof.Dropout
import proofs.«113322_j17540646437457_2_alg».proof.Proof.KernelBlocks
import proofs.«113322_j17540646437457_2_alg».proof.Proof.KernelResult
import proofs.«113322_j17540646437457_2_alg».proof.Proof.Reference
import Idealize.ShloMosaic.Adequacy
import Idealize.ShloMosaic.Init

noncomputable section

namespace Cert.Proof

open Idealize.ShloMosaic Idealize.SL.Sem

/-- The word-level kernel runs to the end without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs to the end and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's text unchanged. -/
theorem preserves : Cert.preserves_Kernel_KernelIdeal := trivial

/-- From memories agreeing on the stack and the mask, the kernel's result and the reference's result are both the
    stack scaled by the mask: x[b, t, d] · k[d] at every index. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Hand.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
